-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x800000 : Shape := ⟨2, ![2, 800000]⟩
abbrev S64x96 : Shape := ⟨2, ![64, 96]⟩
abbrev S64 : Shape := ⟨1, ![64]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x96 .f32) (main_arg1 : IVec S2x800000 32) (main_arg2 : FVec F S64x96 .f32) (main_arg3 : FVec F S64 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S64x96 .f32 := Host.absf main_arg2
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x96 : Shape := ⟨2, ![100000, 96]⟩
abbrev S2x800000 : Shape := ⟨2, ![2, 800000]⟩
abbrev S64x96 : Shape := ⟨2, ![64, 96]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x96 : Shape := ⟨2, ![900000, 96]⟩
abbrev S96x64 : Shape := ⟨2, ![96, 64]⟩
abbrev S1x64 : Shape := ⟨2, ![1, 64]⟩
abbrev S100000x64 : Shape := ⟨2, ![100000, 64]⟩
abbrev S10000x96 : Shape := ⟨2, ![10000, 96]⟩
abbrev S10000x64 : Shape := ⟨2, ![10000, 64]⟩

abbrev nBuf : Space → Nat
  | .hbm => 79
  | .vmem => 6
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S64x96, .f32⟩
  | .hbm, ⟨3, _⟩ => ⟨S64, .f32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S_, .f32⟩
  | .hbm, ⟨12, _⟩ => ⟨S900000, .f32⟩
  | .hbm, ⟨13, _⟩ => ⟨S_, .f32⟩
  | .hbm, ⟨14, _⟩ => ⟨S100000, .f32⟩
  | .hbm, ⟨15, _⟩ => ⟨S900000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S900000, .i32⟩
  | .hbm, ⟨27, _⟩ => ⟨S900000, .i1⟩
  | .hbm, ⟨28, _⟩ => ⟨S_, .i32⟩
  | .hbm, ⟨29, _⟩ => ⟨S900000, .i32⟩
  | .hbm, ⟨30, _⟩ => ⟨S900000, .i32⟩
  | .hbm, ⟨31, _⟩ => ⟨S900000, .i32⟩
  | .hbm, ⟨32, _⟩ => ⟨S900000x1, .i32⟩
  | .hbm, ⟨33, _⟩ => ⟨S900000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S900000, .f32⟩
  | .hbm, ⟨44, _⟩ => ⟨S900000x1, .f32⟩
  | .hbm, ⟨45, _⟩ => ⟨S_, .i32⟩
  | .hbm, ⟨46, _⟩ => ⟨S900000, .i32⟩
  | .hbm, ⟨47, _⟩ => ⟨S900000, .i1⟩
  | .hbm, ⟨48, _⟩ => ⟨S_, .i32⟩
  | .hbm, ⟨49, _⟩ => ⟨S900000, .i32⟩
  | .hbm, ⟨50, _⟩ => ⟨S900000, .i32⟩
  | .hbm, ⟨51, _⟩ => ⟨S900000, .i32⟩
  | .hbm, ⟨52, _⟩ => ⟨S900000x1, .i32⟩
  | .hbm, ⟨53, _⟩ => ⟨S900000x96, .f32⟩
  | .hbm, ⟨54, _⟩ => ⟨S900000x96, .f32⟩
  | .hbm, ⟨55, _⟩ => ⟨S900000x96, .f32⟩
  | .hbm, ⟨56, _⟩ => ⟨S_, .f32⟩
  | .hbm, ⟨57, _⟩ => ⟨S100000x96, .f32⟩
  | .hbm, ⟨58, _⟩ => ⟨S900000x1, .i32⟩
  | .hbm, ⟨59, _⟩ => ⟨S100000x96, .f32⟩
  | .hbm, ⟨60, _⟩ => ⟨S900000x1, .f32⟩
  | .hbm, ⟨61, _⟩ => ⟨S_, .i32⟩
  | .hbm, ⟨62, _⟩ => ⟨S900000, .i32⟩
  | .hbm, ⟨63, _⟩ => ⟨S900000, .i1⟩
  | .hbm, ⟨64, _⟩ => ⟨S_, .i32⟩
  | .hbm, ⟨65, _⟩ => ⟨S900000, .i32⟩
  | .hbm, ⟨66, _⟩ => ⟨S900000, .i32⟩
  | .hbm, ⟨67, _⟩ => ⟨S900000, .i32⟩
  | .hbm, ⟨68, _⟩ => ⟨S900000x1, .i32⟩
  | .hbm, ⟨69, _⟩ => ⟨S900000x96, .f32⟩
  | .hbm, ⟨70, _⟩ => ⟨S900000x96, .f32⟩
  | .hbm, ⟨71, _⟩ => ⟨S900000x96, .f32⟩
  | .hbm, ⟨72, _⟩ => ⟨S_, .f32⟩
  | .hbm, ⟨73, _⟩ => ⟨S100000x96, .f32⟩
  | .hbm, ⟨74, _⟩ => ⟨S900000x1, .i32⟩
  | .hbm, ⟨75, _⟩ => ⟨S100000x96, .f32⟩
  | .hbm, ⟨76, _⟩ => ⟨S96x64, .f32⟩
  | .hbm, ⟨77, _⟩ => ⟨S1x64, .f32⟩
  | .hbm, ⟨78, _⟩ => ⟨S100000x64, .f32⟩
  | .local _ .vmem, ⟨0, _⟩ => ⟨S10000x96, .f32⟩
  | .local _ .vmem, ⟨1, _⟩ => ⟨S10000x96, .f32⟩
  | .local _ .vmem, ⟨2, _⟩ => ⟨S96x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  transposes_S64x96_S96x64_1_0 : S64x96.Transposes [1, 0] S96x64
  shapeCasts_S64_S1x64 : S64.ShapeCasts S1x64
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1
  dot_S10000x96_S96x64_S10000x64_1_0_0_1_n_n_wf : DotDims.WF S10000x96 S96x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S100000x96.size a
  hwx0_0 : ∀ i : grid0.Coords, EltTy.bits .f32 = 32 ∨ (Rect.block (s := S100000x96) S10000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf
def dot_S10000x96_S96x64_S10000x64_1_0_0_1_n_n : DotDims S10000x96 S96x64 S10000x64 where
  lhsContracting := [1]
  rhsContracting := [0]
  lhsNonContracting := [0]
  rhsNonContracting := [1]
  lhsBatch := []
  rhsBatch := []
  wf := dot_S10000x96_S96x64_S10000x64_1_0_0_1_n_n_wf

abbrev win0_0 : Pipeline.Window sig grid0 :=
  Pipeline.Window.ofSpec (Memref.whole main_v55) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x96 : Shape := ⟨2, ![100000, 96]⟩
abbrev S2x800000 : Shape := ⟨2, ![2, 800000]⟩
abbrev S64x96 : Shape := ⟨2, ![64, 96]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x96 : Shape := ⟨2, ![900000, 96]⟩
abbrev S96x64 : Shape := ⟨2, ![96, 64]⟩
abbrev S100000x64 : Shape := ⟨2, ![100000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S64x96, .f32⟩
  | .hbm, ⟨3, _⟩ => ⟨S64, .f32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S_, .f32⟩
  | .hbm, ⟨12, _⟩ => ⟨S900000, .f32⟩
  | .hbm, ⟨13, _⟩ => ⟨S_, .f32⟩
  | .hbm, ⟨14, _⟩ => ⟨S100000, .f32⟩
  | .hbm, ⟨15, _⟩ => ⟨S900000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S900000, .i32⟩
  | .hbm, ⟨27, _⟩ => ⟨S900000, .i1⟩
  | .hbm, ⟨28, _⟩ => ⟨S_, .i32⟩
  | .hbm, ⟨29, _⟩ => ⟨S900000, .i32⟩
  | .hbm, ⟨30, _⟩ => ⟨S900000, .i32⟩
  | .hbm, ⟨31, _⟩ => ⟨S900000, .i32⟩
  | .hbm, ⟨32, _⟩ => ⟨S900000x1, .i32⟩
  | .hbm, ⟨33, _⟩ => ⟨S900000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S900000, .f32⟩
  | .hbm, ⟨44, _⟩ => ⟨S900000x1, .f32⟩
  | .hbm, ⟨45, _⟩ => ⟨S_, .i32⟩
  | .hbm, ⟨46, _⟩ => ⟨S900000, .i32⟩
  | .hbm, ⟨47, _⟩ => ⟨S900000, .i1⟩
  | .hbm, ⟨48, _⟩ => ⟨S_, .i32⟩
  | .hbm, ⟨49, _⟩ => ⟨S900000, .i32⟩
  | .hbm, ⟨50, _⟩ => ⟨S900000, .i32⟩
  | .hbm, ⟨51, _⟩ => ⟨S900000, .i32⟩
  | .hbm, ⟨52, _⟩ => ⟨S900000x1, .i32⟩
  | .hbm, ⟨53, _⟩ => ⟨S900000x96, .f32⟩
  | .hbm, ⟨54, _⟩ => ⟨S900000x96, .f32⟩
  | .hbm, ⟨55, _⟩ => ⟨S900000x96, .f32⟩
  | .hbm, ⟨56, _⟩ => ⟨S_, .f32⟩
  | .hbm, ⟨57, _⟩ => ⟨S100000x96, .f32⟩
  | .hbm, ⟨58, _⟩ => ⟨S900000x1, .i32⟩
  | .hbm, ⟨59, _⟩ => ⟨S100000x96, .f32⟩
  | .hbm, ⟨60, _⟩ => ⟨S900000x1, .f32⟩
  | .hbm, ⟨61, _⟩ => ⟨S_, .i32⟩
  | .hbm, ⟨62, _⟩ => ⟨S900000, .i32⟩
  | .hbm, ⟨63, _⟩ => ⟨S900000, .i1⟩
  | .hbm, ⟨64, _⟩ => ⟨S_, .i32⟩
  | .hbm, ⟨65, _⟩ => ⟨S900000, .i32⟩
  | .hbm, ⟨66, _⟩ => ⟨S900000, .i32⟩
  | .hbm, ⟨67, _⟩ => ⟨S900000, .i32⟩
  | .hbm, ⟨68, _⟩ => ⟨S900000x1, .i32⟩
  | .hbm, ⟨69, _⟩ => ⟨S900000x96, .f32⟩
  | .hbm, ⟨70, _⟩ => ⟨S900000x96, .f32⟩
  | .hbm, ⟨71, _⟩ => ⟨S900000x96, .f32⟩
  | .hbm, ⟨72, _⟩ => ⟨S_, .f32⟩
  | .hbm, ⟨73, _⟩ => ⟨S100000x96, .f32⟩
  | .hbm, ⟨74, _⟩ => ⟨S900000x1, .i32⟩
  | .hbm, ⟨75, _⟩ => ⟨S100000x96, .f32⟩
  | .hbm, ⟨76, _⟩ => ⟨S96x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  transposes_S64x96_S96x64_1_0 : S64x96.Transposes [1, 0] S96x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1
  dot_S100000x96_S96x64_S100000x64_1_0_0_1_n_n_wf : DotDims.WF S100000x96 S96x64 S100000x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf
def dot_S100000x96_S96x64_S100000x64_1_0_0_1_n_n : DotDims S100000x96 S96x64 S100000x64 where
  lhsContracting := [1]
  rhsContracting := [0]
  lhsNonContracting := [0]
  rhsNonContracting := [1]
  lhsBatch := []
  rhsBatch := []
  wf := dot_S100000x96_S96x64_S100000x64_1_0_0_1_n_n_wf

class Facts : Prop extends Facts₀ where

variable [Facts]
-- ==== Proof.DenseLogistic.lean ====
/-
  A dense layer followed by the logistic function, over the extended reals.

  For a matrix `P` with 100000 rows and 96 columns, a weight matrix `W` with 64 rows and 96 columns and a bias `b`
  with 64 entries, the entry (r, j) of the result is

      σ (∑ₖ P r k · W j k + b j),          σ z = 1 / (1 + e^(−z)),

  the sum running over the 96 columns. Both programs of the certificate end with this array, of the same `P` (the
  node features after two rounds of normalised neighbourhood averaging, which the two programs compute by the same
  operations), the same `W` and the same `b`: one multiplies a block of 10000 rows of `P` by the transposed weights,
  adds the bias as a row spread over the block and applies σ as ONE operation; the other multiplies the whole matrix,
  adds the bias spread over all rows, and spells σ out as a negation, an exponential, a sum with 1 and a quotient.
  Nothing here needs an entry to be finite: a sum of products is the same sum however its rows are grouped into
  blocks, and σ is one function of the extended reals in either spelling (`logistic_spelled`).
-/
import Idealize.ShloMosaic.PureOps.Ideal
import Idealize.ShloMosaic.PureOps.Ideal.Laws
import Idealize.ShloMosaic.Lib.ValueIdx

noncomputable section

namespace Cert.DenseLogistic

open Idealize.ShloMosaic Idealize.ShloMosaic.ValueIdx

/-- Entry (r, j) of the layer: σ of row `r` of `P` against row `j` of `W`, plus the `j`-th bias. -/
def entry (P : Fin 100000 → Fin 96 → EReal) (W : Fin 64 → Fin 96 → EReal) (b : Fin 64 → EReal)
    (r : Fin 100000) (j : Fin 64) : EReal :=
  Ideal.logistic ((∑ k : Fin 96, P r k * W j k) + b j)

/-- The layer's result as an array of 100000 rows and 64 columns. -/
def layer (P : Fin 100000 → Fin 96 → EReal) (W : Fin 64 → Fin 96 → EReal) (b : Fin 64 → EReal) :
    (⟨2, ![100000, 64]⟩ : Shape).Idx → EReal :=
  fun i => entry P W b ⟨(i 0).val, idx2_lt0 i⟩ ⟨(i 1).val, idx2_lt1 i⟩

/-- The array read at row `r`, column `j`. -/
theorem layer_ix2 (P : Fin 100000 → Fin 96 → EReal) (W : Fin 64 → Fin 96 → EReal) (b : Fin 64 → EReal)
    (r : Fin 100000) (j : Fin 64) : layer P W b (ix2 r j) = entry P W b r j := rfl

/-- The single-precision word `0x3F800000` (sign 0, exponent 127, fraction 0) is the number 1. -/
theorem ofBits_one_f32 : Ideal.ofBits .f32 0x3F800000#32 = (1 : EReal) := by
  simp [Ideal.ofBits, Ideal.ieee, -EReal.coe_mul]
  norm_num

/-- σ spelled out — the quotient of 1 by the sum of 1 and e^(−z), the two ones written as single-precision words — is
    σ: the quotient's and the exponential's conventions at the infinities are those σ is defined by. -/
theorem logistic_spelled (z : EReal) :
    Ideal.div (Ideal.ofBits .f32 0x3F800000#32) (Ideal.ofBits .f32 0x3F800000#32 + Ideal.exp (-z)) = Ideal.logistic z := by
  rw [ofBits_one_f32]; rfl

end Cert.DenseLogistic

end
-- ==== Proof.BlockValue.lean ====
/-
  What the kernel body stores at one grid point, read at an entry.

  At a grid point the body holds a block `x` of 10000 rows of the feature matrix (96 columns), the transposed
  weights `w` (96 rows, 64 columns) and the bias as one row `b` of 64 entries. It narrows `x` and `w` to a shorter
  float format — over the extended reals a change of format is the identity —, multiplies them into an accumulator of
  zeros, adds the bias row spread over the 10000 rows, and applies the logistic function σ. So the entry (p, q) of
  what it stores is

      σ (∑ₖ x p k · w k q + b 0 q),

  the sum over the 96 columns of `x`: the product into a zero accumulator is the plain sum of products (zero is
  neutral for + on the extended reals), re-indexed from the one contracted axis to the numbers below 96.
-/
import proofs.«141218_j51196010169027_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«141218_j51196010169027_1_alg».proof.Proof.DenseLogistic

noncomputable section

namespace Cert.KernelIdeal.BlockValue

open Cert.KernelIdeal Cert.KernelIdeal.Gen Idealize.ShloMosaic Idealize.ShloMosaic.ValueIdx Cert.DenseLogistic

/-- The product's index maps, coordinate by coordinate, for any output index `i` and any index `c` of the contracted
    shape: the left factor keeps the output's row and takes the contracted coordinate as its column, -/
theorem lhs_row (i : S10000x64.Idx) (c : dot_S10000x96_S96x64_S10000x64_1_0_0_1_n_n.contr.Idx) : (dot_S10000x96_S96x64_S10000x64_1_0_0_1_n_n.lhsIdx i c 0).val = (i 0).val := by
  unfold DotDims.lhsIdx
  rw [dif_neg (show ¬(0 : Fin S10000x96.rank) ∈ dot_S10000x96_S96x64_S10000x64_1_0_0_1_n_n.lhsBatch by decide),
    dif_pos (show (0 : Fin S10000x96.rank) ∈ dot_S10000x96_S96x64_S10000x64_1_0_0_1_n_n.lhsNonContracting by decide)]
  rfl
theorem lhs_col (i : S10000x64.Idx) (c : dot_S10000x96_S96x64_S10000x64_1_0_0_1_n_n.contr.Idx) : (dot_S10000x96_S96x64_S10000x64_1_0_0_1_n_n.lhsIdx i c 1).val = (c ⟨0, by decide⟩).val :=
  dot_S10000x96_S96x64_S10000x64_1_0_0_1_n_n.lhsIdx_val_of_single rfl i c
/-- and the right factor takes the contracted coordinate as its row and keeps the output's column. -/
theorem rhs_row (i : S10000x64.Idx) (c : dot_S10000x96_S96x64_S10000x64_1_0_0_1_n_n.contr.Idx) : (dot_S10000x96_S96x64_S10000x64_1_0_0_1_n_n.rhsIdx i c 0).val = (c ⟨0, by decide⟩).val :=
  dot_S10000x96_S96x64_S10000x64_1_0_0_1_n_n.rhsIdx_val_of_single rfl i c
theorem rhs_col (i : S10000x64.Idx) (c : dot_S10000x96_S96x64_S10000x64_1_0_0_1_n_n.contr.Idx) : (dot_S10000x96_S96x64_S10000x64_1_0_0_1_n_n.rhsIdx i c 1).val = (i 1).val := by
  unfold DotDims.rhsIdx
  rw [dif_neg (show ¬(1 : Fin S96x64.rank) ∈ dot_S10000x96_S96x64_S10000x64_1_0_0_1_n_n.rhsBatch by decide),
    dif_pos (show (1 : Fin S96x64.rank) ∈ dot_S10000x96_S96x64_S10000x64_1_0_0_1_n_n.rhsNonContracting by decide)]
  rfl

/-- A block of rows times the transposed weights, into an accumulator of zeros: entry (p, q) is the sum over `k` of
    row `p` of the block against column `q` of the weights. The one contracted axis has 96 positions, so the sum over
    the contracted shape is a sum over the numbers below 96. -/
theorem product_at (l : FVec Ideal S10000x96 .bf16) (r : FVec Ideal S96x64 .bf16) (p : Fin 10000) (q : Fin 64) :
    matmul dot_S10000x96_S96x64_S10000x64_1_0_0_1_n_n none l r (constant (F := Ideal) S10000x64 .f32 0x00000000#32) (ix2 p q)
      = ∑ k : Fin 96, l (ix2 p k) * r (ix2 k q) := by
  refine (Ideal.matmul_constant_zero_apply dot_S10000x96_S96x64_S10000x64_1_0_0_1_n_n none l r (ix2 p q)).trans ?_
  rw [← Equiv.sum_comp (contrEquiv1 dot_S10000x96_S96x64_S10000x64_1_0_0_1_n_n 96 rfl rfl).symm]
  refine Finset.sum_congr rfl fun k _ => ?_
  have hk := contrEquiv1_symm_val dot_S10000x96_S96x64_S10000x64_1_0_0_1_n_n 96 rfl rfl k
  have el : dot_S10000x96_S96x64_S10000x64_1_0_0_1_n_n.lhsIdx (ix2 p q) ((contrEquiv1 dot_S10000x96_S96x64_S10000x64_1_0_0_1_n_n 96 rfl rfl).symm k) = ix2 p k :=
    funext fun a => Fin.ext (by
      match a with
      | ⟨0, _⟩ => exact lhs_row _ _
      | ⟨1, _⟩ => exact (lhs_col _ _).trans hk)
  have er : dot_S10000x96_S96x64_S10000x64_1_0_0_1_n_n.rhsIdx (ix2 p q) ((contrEquiv1 dot_S10000x96_S96x64_S10000x64_1_0_0_1_n_n 96 rfl rfl).symm k) = ix2 k q :=
    funext fun a => Fin.ext (by
      match a with
      | ⟨0, _⟩ => exact (rhs_row _ _).trans hk
      | ⟨1, _⟩ => exact rhs_col _ _)
  rw [el, er]

/-- THE STORED VALUE AT AN ENTRY: σ of row `p` of the block against column `q` of the transposed weights, plus the
    bias row's `q`-th entry. The casts to the same shape and the narrowing of the float format drop out; the bias
    row spread over the block reads its one row. -/
theorem stored_at (x : Vec Ideal S10000x96 .f32) (w : Vec Ideal S96x64 .f32) (b : Vec Ideal S1x64 .f32)
    (p : Fin 10000) (q : Fin 64) :
    k0_pay1 x w b (ix2 p q)
      = Ideal.logistic ((∑ k : Fin 96, x (ix2 p k) * w (ix2 k q)) + b (ix2 (0 : Fin 1) q)) := by
  unfold k0_pay1
  show Ideal.logistic
      (matmul dot_S10000x96_S96x64_S10000x64_1_0_0_1_n_n none (truncf .bf16 (shapeCast S10000x96 x shapeCasts_S10000x96_S10000x96) bitsLt_bf16_f32)
          (truncf .bf16 (shapeCast S96x64 w shapeCasts_S96x64_S96x64) bitsLt_bf16_f32)
          (constant (F := Ideal) S10000x64 .f32 0x00000000#32) (ix2 p q)
        + broadcastTo S10000x64 (shapeCast S1x64 b shapeCasts_S1x64_S1x64) broadcasts_S1x64_S10000x64 (ix2 p q)) = _
  rw [shapeCast_self, shapeCast_self, shapeCast_self, product_at, broadcastTo_1b_ab_apply]
  rfl

/-- ONE BLOCK OF THE LAYER. Let the block `x` hold rows `T·10000 …` of a matrix `P`, let `w` hold `W` transposed and `b`
    hold `B` as one row. Then what the body stores, read at an entry `y` of the block, is the layer of `P`, `W`, `B` read
    at the entry `i` of the whole array that sits `T` blocks down in the same column: the same sum of the same
    products, and the same bias entry. -/
theorem stored_is_layer (P : Fin 100000 → Fin 96 → EReal) (W : Fin 64 → Fin 96 → EReal) (B : Fin 64 → EReal)
    (x : Vec Ideal S10000x96 .f32) (w : Vec Ideal S96x64 .f32) (b : Vec Ideal S1x64 .f32)
    (y : S10000x64.Idx) (i : S100000x64.Idx) (T : ℕ)
    (hrow : (i 0).val = T * 10000 + (y 0).val) (hcol : (i 1).val = (y 1).val)
    (hx : ∀ (p : Fin 10000) (k : Fin 96) (r : Fin 100000), r.val = T * 10000 + p.val → x (ix2 p k) = P r k)
    (hw : ∀ (k : Fin 96) (q : Fin 64), w (ix2 k q) = W q k)
    (hb : ∀ q : Fin 64, b (ix2 (0 : Fin 1) q) = B q) :
    k0_pay1 x w b y = layer P W B i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  have hr : r.val = T * 10000 + p.val := hrow
  have hj : j = q := Fin.ext hcol
  subst hj
  rw [stored_at, layer_ix2]
  unfold entry
  rw [hb j]
  exact congrArg (fun s => Ideal.logistic (s + B j)) (Finset.sum_congr rfl fun k _ => by rw [hx p k r hr, hw k j])

end Cert.KernelIdeal.BlockValue

end
-- ==== Proof.ArrayValue.lean ====
/-
  From the blocks to the array: what the kernel's result array holds after the run.

  The grid has ten points. Point `t` is given rows `t·10000 … t·10000 + 9999` of the propagated feature matrix (all
  96 columns), the whole transposed weight matrix and the whole bias row — those two windows never move — and writes
  back rows `t·10000 …` of the result (all 64 columns). By `stored_is_layer` what it writes back is that block of the
  dense logistic layer of the three arrays as the region finds them. The ten blocks tile the 100000 rows: row `r` is
  written by point `r / 10000`, and by no other. So after the run the result array IS the layer.
-/
import proofs.«141218_j51196010169027_1_alg».proof.Proof.Gen.KernelIdeal.Value
import proofs.«141218_j51196010169027_1_alg».proof.Proof.BlockValue

noncomputable section

namespace Cert.KernelIdeal.ArrayValue

open Cert.KernelIdeal Cert.KernelIdeal.Gen Cert.KernelIdeal.BlockValue Cert.DenseLogistic
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body loads and stores whole blocks: every offset is zero. -/
theorem offsets_zero : (![0, 0] : Fin 2 → Nat) = fun _ => 0 := funext fun a => by fin_cases a <;> rfl

/-- The printed index maps over the ten points: the feature window moves down with the result window and stays in
    column block 0; the weight and bias windows stay at block (0, 0); the result window stays in column block 0 and
    its row block is at most 9. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem index_onto : ∀ q : Fin 10, ∃ t : Fin cfg0.N, win0_3.index t = ![q.val, 0] :=
  (by decide +kernel : ∀ q : Fin 10, ∃ t : Fin grid0.N, win0_3.index t = ![q.val, 0])

/-- The dense logistic layer of the three arrays as the region finds them: the propagated features, the weights
    (held transposed) and the bias (held as one row). -/
def foundLayer (c : Dev nD) : S100000x64.Idx → EReal :=
  layer (fun r k => V m c (Pipeline.arrRef spec0 0) (ix2 r k)) (fun j k => V m c (Pipeline.arrRef spec0 1) (ix2 k j))
    (fun j => V m c (Pipeline.arrRef spec0 2) (ix2 (0 : Fin 1) j))

/-- WHAT A POINT WRITES BACK, for ANY three arrays in the input windows' places: block `t` of their layer. The feature
    block is the feature array read `t` blocks down, the weight and bias blocks are those arrays themselves, and an
    entry of a block sits at block index × block size + its coordinate inside the block. -/
theorem block_of_layer (A0 : S100000x96.Idx → EReal) (A1 : S96x64.Idx → EReal) (A2 : S1x64.Idx → EReal)
    (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal)
          (layer (fun r k => A0 (ix2 r k)) (fun j k => A1 (ix2 k j)) (fun j => A2 (ix2 (0 : Fin 1) j))) := by
  unfold out0_3
  rw [View.canon_unit_zero offsets_zero]
  simp only [View.ld_unit_zero (S := S10000x96) offsets_zero, View.ld_unit_zero (S := S96x64) offsets_zero,
    View.ld_unit_zero (S := S1x64) offsets_zero]
  obtain ⟨e0, e1, e2, e3, e4, e5, e6, e7⟩ := index_facts t
  funext y
  refine stored_is_layer (fun r k => A0 (ix2 r k)) (fun j k => A1 (ix2 k j)) (fun j => A2 (ix2 (0 : Fin 1) j))
    (((cfg0.win 0).blk t).view.read (Elt Ideal) A0) (((cfg0.win 1).blk t).view.read (Elt Ideal) A1)
    (((cfg0.win 2).blk t).view.read (Elt Ideal) A2) ((cfg0.win 3).xinj (grid0.coords t) y)
    (((cfg0.win 3).blk t).view.emb y) (win0_3.index t (0 : Fin 2)) ?_ ?_ ?_ ?_ ?_
  · show win0_3.index t (0 : Fin 2) * 10000 + 1 * (y 0).val = win0_3.index t (0 : Fin 2) * 10000 + (y 0).val
    omega
  · show win0_3.index t (1 : Fin 2) * 64 + 1 * (y 1).val = (y 1).val
    omega
  · intro p k r hr
    show A0 (((cfg0.win 0).blk t).view.emb (ix2 p k)) = A0 (ix2 r k)
    have h : ((cfg0.win 0).blk t).view.emb (ix2 p k) = ix2 r k := by
      funext a; apply Fin.ext
      match a with
      | ⟨0, _⟩ => show win0_0.index t (0 : Fin 2) * 10000 + 1 * p.val = r.val; omega
      | ⟨1, _⟩ => show win0_0.index t (1 : Fin 2) * 96 + 1 * k.val = k.val; omega
    rw [h]
  · intro k q
    show A1 (((cfg0.win 1).blk t).view.emb (ix2 k q)) = A1 (ix2 k q)
    have h : ((cfg0.win 1).blk t).view.emb (ix2 k q) = ix2 k q := by
      funext a; apply Fin.ext
      match a with
      | ⟨0, _⟩ => show win0_1.index t (0 : Fin 2) * 96 + 1 * k.val = k.val; omega
      | ⟨1, _⟩ => show win0_1.index t (1 : Fin 2) * 64 + 1 * q.val = q.val; omega
    rw [h]
  · intro q
    show A2 (((cfg0.win 2).blk t).view.emb (ix2 (0 : Fin 1) q)) = A2 (ix2 (0 : Fin 1) q)
    have h : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 64 + 1 * q.val = q.val; omega
    rw [h]

/-- WHAT POINT `t` WRITES BACK is block `t` of the layer of the arrays the region found: the fact above, at those
    arrays. -/
theorem flushed_eq (c : Dev nD) (t : Fin cfg0.N) :
    (dats m 0 c).flushed 3 t = ((cfg0.win 3).blk t).view.read (Elt Ideal) (foundLayer m c) := by
  rw [Value.flushed3]
  unfold iblk foundLayer
  exact block_of_layer (V m c (Pipeline.arrRef spec0 0)) (V m c (Pipeline.arrRef spec0 1))
    (V m c (Pipeline.arrRef spec0 2)) t

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v58).slice (win0_3.rect t)).set ↔ _
  rw [View.set_slice_whole, Rect.mem_set_unit]
  exact Iff.rfl

/-- THE BLOCKS COVER THE ARRAY: row `r` lies in the block of the point whose row block is `r / 10000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- THE ARRAY after the run is the layer of the arrays the region found. -/
theorem final (c : Dev nD) : (dats m 0 c).arrAt 3 cfg0.N = foundLayer m c :=
  (dats m 0 c).arrAt_eq_of_cover 3 (foundLayer m c) (fun t _ => flushed_eq m c t) covered

/-- The kernel's run with the result array named: it ends holding the layer, the arguments unchanged. -/
theorem run : θ_run defs (onTc (τ := τ) (main (F := Ideal))) ⟨m, fun _ => 0, ρ⟩ fun r => ∀ c : Dev nD,
      r.2.mem ((c : Thread nD τ).loc main_v58) = foundLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RegionEntry.lean ====
/-
  What the kernel's region finds in its three input arrays.

  Before the region the program runs, on the host, the operations that both programs share — two rounds of
  normalised neighbourhood averaging of the node features over the edge list, every value up to the second
  scatter-add — and then two re-layings of arguments: the weight matrix transposed (96 × 64), and the bias viewed as one row (1 × 64). So the
  region finds
    * in its first array the propagated features: the SAME composition of the same operations on the same two
      arguments as the reference's stage of that name, which is kept as one unopened function;
    * in its second array the weights transposed: entry (k, j) is the weights' entry (j, k);
    * in its third array the bias as a row: entry (0, j) is the bias' entry j.
  The first fact compares two spellings of one composition of operations; no operation is evaluated.
-/
import proofs.«141218_j51196010169027_1_alg».proof.Proof.Gen.KernelIdeal.Frame
import proofs.«141218_j51196010169027_1_alg».proof.Proof.RefReadPatched
import Idealize.ShloMosaic.Lib.StableHlo.Run
import Idealize.ShloMosaic.Lib.ValueIdx
import Idealize.ShloMosaic.Lib.ValueLayout

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The second array holds the weights transposed. -/
theorem found_weights (c : Dev nD) :
    (V m c main_v56 : S96x64.Idx → EReal)
      = transpose S96x64 [1, 0] (m ((c : Thread nD τ).loc main_arg2)) transposes_S64x96_S96x64_1_0 := by
  dsimp only [Gen.V]
  simp only [Gen.hostOps0, Gen.hostOps0_1, Gen.hostOps0_2, List.flatten_cons, List.flatten_nil, List.append_nil,
    List.cons_append, List.nil_append]
  after_results_simp <;> rfl

/-- The third array holds the bias viewed as one row. -/
theorem found_bias (c : Dev nD) :
    (V m c main_v57 : S1x64.Idx → EReal)
      = shapeCast S1x64 (m ((c : Thread nD τ).loc main_arg3)) shapeCasts_S64_S1x64 := by
  dsimp only [Gen.V]
  simp only [Gen.hostOps0, Gen.hostOps0_1, Gen.hostOps0_2, List.flatten_cons, List.flatten_nil, List.append_nil,
    List.cons_append, List.nil_append]
  after_results_simp <;> rfl

/-! ## The propagated features

The operations before the region come in three stretches: eighteen that build the two index lists of the edges (with
a self-loop per node) and the node degrees; the three of the inlined `where` that turns the degrees into their
inverse square roots (zero where the degree is zero); and fifty-three that gather, scale and scatter-add the
features twice and, last, re-lay the weights and the bias. A fold over a concatenation is the fold over the second list
of the fold over the first, so each stretch is read on its own, over WHATEVER the buffers held before it. -/

/-- The contents after two lists of operations run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih (op.result W)

/-- The region's entry contents, stretch by stretch. -/
theorem V_split (c : Dev nD) (b : Ref sig .tc) :
    V m c b = after hostOps0_2 (after hostOps0_1 (after hostOps0 (fun b => m (c, b)))) (Proc.devRef .tc b) := by
  show after (List.flatten [hostOps0, hostOps0_1, hostOps0_2]) (fun b => m (c, b)) (Proc.devRef .tc b) = _
  rw [show List.flatten [hostOps0 (F := Ideal), hostOps0_1, hostOps0_2] = hostOps0 ++ (hostOps0_1 ++ hostOps0_2) from by
    simp only [List.flatten_cons, List.flatten_nil, List.append_nil], after_append, after_append]

/-! ### The first stretch: the edge lists, the degrees' sign test and their inverse square roots -/

theorem first_rows (c : Dev nD) :
    (after (hostOps0 (F := Ideal)) (fun b => m (c, b)) (Proc.devRef .tc main_v3) : S900000.Idx → BitVec 32) = Cert.ReferenceIdeal.ReadP.val_main_v3 (F := Ideal) (m ((c : Thread nD τ).loc main_arg1)) := by
  simp only [hostOps0]
  after_results_simp
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  rfl

theorem first_cols (c : Dev nD) :
    (after (hostOps0 (F := Ideal)) (fun b => m (c, b)) (Proc.devRef .tc main_v6) : S900000.Idx → BitVec 32) = Cert.ReferenceIdeal.ReadP.val_main_v6 (F := Ideal) (m ((c : Thread nD τ).loc main_arg1)) := by
  simp only [hostOps0]
  after_results_simp
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  rfl

theorem first_positive (c : Dev nD) :
    (after (hostOps0 (F := Ideal)) (fun b => m (c, b)) (Proc.devRef .tc main_v12) : S100000.Idx → BitVec 1) = Cert.ReferenceIdeal.ReadP.val_main_v12 (F := Ideal) (m ((c : Thread nD τ).loc main_arg1)) := by
  simp only [hostOps0]
  after_results_simp
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  rfl

theorem first_rsqrt (c : Dev nD) :
    (after (hostOps0 (F := Ideal)) (fun b => m (c, b)) (Proc.devRef .tc main_v13) : S100000.Idx → EReal) = Cert.ReferenceIdeal.ReadP.val_main_v13 (F := Ideal) (m ((c : Thread nD τ).loc main_arg1)) := by
  simp only [hostOps0]
  after_results_simp
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  rfl

theorem first_zero (c : Dev nD) :
    (after (hostOps0 (F := Ideal)) (fun b => m (c, b)) (Proc.devRef .tc main_cst_2) : S_.Idx → EReal) = Cert.ReferenceIdeal.ReadP.val_main_cst_2 (F := Ideal) := by
  simp only [hostOps0]
  after_results_simp
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  rfl

theorem first_features (c : Dev nD) :
    (after (hostOps0 (F := Ideal)) (fun b => m (c, b)) (Proc.devRef .tc main_arg0) : S100000x96.Idx → EReal) = (m ((c : Thread nD τ).loc main_arg0)) := by
  simp only [hostOps0]
  after_results_simp <;> rfl

/-! ### The second stretch: the inlined `where`, over any earlier contents -/

/-- The `where` selects, node by node, between the second and the third of its operands — the third a scalar spread
    over the nodes; the values pass into and out of the call's own buffers unchanged. -/
theorem where_result (W : Valuation τ sig (Elt Ideal)) :
    (after (hostOps0_1 (F := Ideal)) W (Proc.devRef .tc main_v14) : S100000.Idx → EReal)
      = select (W (Proc.devRef .tc main_v12) : S100000.Idx → BitVec 1) (W (Proc.devRef .tc main_v13) : S100000.Idx → EReal)
          (broadcastInDim S100000 ![] bcast_S_S100000 (id (W (Proc.devRef .tc main_cst_2) : S_.Idx → EReal))) := by
  simp only [hostOps0_1]
  after_results_simp <;> rfl

/-- It writes none of the edge lists or the features. -/
theorem where_keeps_rows (W : Valuation τ sig (Elt Ideal)) :
    after (hostOps0_1 (F := Ideal)) W (Proc.devRef .tc main_v3) = W (Proc.devRef .tc main_v3) := by
  simp only [hostOps0_1]
  after_results_simp <;> rfl
theorem where_keeps_cols (W : Valuation τ sig (Elt Ideal)) :
    after (hostOps0_1 (F := Ideal)) W (Proc.devRef .tc main_v6) = W (Proc.devRef .tc main_v6) := by
  simp only [hostOps0_1]
  after_results_simp <;> rfl
theorem where_keeps_features (W : Valuation τ sig (Elt Ideal)) :
    after (hostOps0_1 (F := Ideal)) W (Proc.devRef .tc main_arg0) = W (Proc.devRef .tc main_arg0) := by
  simp only [hostOps0_1]
  after_results_simp <;> rfl

/-! ### The third stretch: two rounds of gather, scale and scatter-add, over any earlier contents -/

/-- If the buffers hold the reference's stages of the same names — the inverse square-root degrees, the two index
    lists — and the node features, the third stretch leaves in its last scatter's buffer the reference's stage of
    that name: the same operations, in the same order, applied to the same four values. -/
theorem propagate_result (W : Valuation τ sig (Elt Ideal))
    (x0 : (⟨Cert.ReferenceIdeal.S100000x96, .f32⟩ : BufTy).Contents (Elt Ideal))
    (x1 : (⟨Cert.ReferenceIdeal.S2x800000, .i32⟩ : BufTy).Contents (Elt Ideal))
    (hd : (W (Proc.devRef .tc main_v14) : S100000.Idx → EReal) = Cert.ReferenceIdeal.ReadP.val_main_v14 (F := Ideal) x1)
    (hr : (W (Proc.devRef .tc main_v3) : S900000.Idx → BitVec 32) = Cert.ReferenceIdeal.ReadP.val_main_v3 (F := Ideal) x1)
    (hc : (W (Proc.devRef .tc main_v6) : S900000.Idx → BitVec 32) = Cert.ReferenceIdeal.ReadP.val_main_v6 (F := Ideal) x1)
    (hx : (W (Proc.devRef .tc main_arg0) : S100000x96.Idx → EReal) = x0) :
    (after (hostOps0_2 (F := Ideal)) W (Proc.devRef .tc main_v55) : S100000x96.Idx → EReal)
      = Cert.ReferenceIdeal.ReadP.val_main_v55 (F := Ideal) x0 x1 := by
  simp only [hostOps0_2]
  after_results_simp
  rw [hd, hr, hc, hx]
  rfl

/-- THE FIRST ARRAY holds the propagated features: the reference's stage of that name, of the same two arguments. -/
theorem found_features (c : Dev nD) :
    (V m c main_v55 : S100000x96.Idx → EReal)
      = Cert.ReferenceIdeal.ReadP.val_main_v55 (F := Ideal) (m ((c : Thread nD τ).loc main_arg0)) (m ((c : Thread nD τ).loc main_arg1)) := by
  rw [V_split]
  refine propagate_result _ _ _ ?_ ?_ ?_ ?_
  · rw [where_result, first_positive, first_rsqrt, first_zero]
    rfl
  · rw [where_keeps_rows, first_rows]
  · rw [where_keeps_cols, first_cols]
  · rw [where_keeps_features, first_features]

/-- The propagated features, entry by entry. -/
theorem features_at (c : Dev nD) (r : Fin 100000) (k : Fin 96) :
    V m c main_v55 (ix2 r k)
      = Cert.ReferenceIdeal.ReadP.val_main_v55 (F := Ideal) (m ((c : Thread nD τ).loc main_arg0))
          (m ((c : Thread nD τ).loc main_arg1)) (ix2 r k) :=
  congrFun (found_features m c) (ix2 r k)

/-- The transposed weights at (k, j) are the weights at (j, k). -/
theorem weights_at (c : Dev nD) (k : Fin 96) (j : Fin 64) :
    V m c main_v56 (ix2 k j) = m ((c : Thread nD τ).loc main_arg2) (ix2 j k) :=
  (congrFun (found_weights m c) (ix2 k j)).trans (transpose_ix2_apply _ _ k j)

/-- The bias row at (0, j) is the bias at j. -/
theorem bias_at (c : Dev nD) (j : Fin 64) :
    V m c main_v57 (ix2 (0 : Fin 1) j) = m ((c : Thread nD τ).loc main_arg3) (ix1 j) :=
  (congrFun (found_bias m c) (ix2 (0 : Fin 1) j)).trans (shapeCast_a_1a_apply _ _ 0 j)

end Cert.KernelIdeal.RegionEntry

end
-- ==== Proof.KernelIsLayer.lean ====
/-
  The kernel's result is the dense logistic layer of its arguments.

  After the run the result array is the layer of the three arrays the region found (the blocks tile the array), and
  those three arrays (the first three windows' arrays: the buffers of the last scatter, the transpose and the
  reshape) are the propagated features, the weights transposed and the bias as a row. A transposed matrix
  read at (k, j) is the matrix at (j, k), and a vector viewed as a row reads its entry; so the result is the layer
  of the propagated features, the weights and the bias themselves.
-/
import proofs.«141218_j51196010169027_1_alg».proof.Proof.ArrayValue
import proofs.«141218_j51196010169027_1_alg».proof.Proof.RegionEntry

noncomputable section

namespace Cert.KernelIdeal.LayerValue

open Cert.KernelIdeal Cert.KernelIdeal.Gen Cert.KernelIdeal.ArrayValue Cert.KernelIdeal.RegionEntry Cert.DenseLogistic
open Idealize.ShloMosaic Idealize.ShloMosaic.TcCoe Idealize.ShloMosaic.ValueIdx Idealize.SL.Sem

variable (m : (ℓ : Loc nD τ sig) → Buf (Elt Ideal) ℓ) (ρ : Dev nD → PrngReg)

/-- The layer of the arrays the region found is the layer of the arguments: the propagated features as the one
    function of the node features and the edge list, the weights, the bias. -/
theorem foundLayer_eq (c : Dev nD) :
    foundLayer m c
      = layer (fun r k => Cert.ReferenceIdeal.ReadP.val_main_v55 (F := Ideal) (m ((c : Thread nD τ).loc main_arg0)) (m ((c : Thread nD τ).loc main_arg1)) (ix2 r k))
          (fun j k => (m ((c : Thread nD τ).loc main_arg2)) (ix2 j k)) (fun j => (m ((c : Thread nD τ).loc main_arg3)) (ix1 j)) := by
  unfold foundLayer
  rw [show (fun (r : Fin 100000) (k : Fin 96) => V m c (Pipeline.arrRef spec0 0) (ix2 r k)) = _ from
        funext fun r => funext fun k => features_at m c r k,
    show (fun (j : Fin 64) (k : Fin 96) => V m c (Pipeline.arrRef spec0 1) (ix2 k j)) = _ from
        funext fun j => funext fun k => weights_at m c k j,
    show (fun (j : Fin 64) => V m c (Pipeline.arrRef spec0 2) (ix2 (0 : Fin 1) j)) = _ from funext fun j => bias_at m c j]

/-- The kernel's run: the result array ends holding the layer of the arguments, and the arguments are unchanged. -/
theorem run : θ_run defs (onTc (τ := τ) (main (F := Ideal))) ⟨m, fun _ => 0, ρ⟩ fun r => ∀ c : Dev nD,
      r.2.mem ((c : Thread nD τ).loc main_v58)
        = layer (fun r k => Cert.ReferenceIdeal.ReadP.val_main_v55 (F := Ideal) (m ((c : Thread nD τ).loc main_arg0)) (m ((c : Thread nD τ).loc main_arg1)) (ix2 r k))
            (fun j k => (m ((c : Thread nD τ).loc main_arg2)) (ix2 j k)) (fun j => (m ((c : Thread nD τ).loc main_arg3)) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (foundLayer_eq m c), (h c).2⟩) (ArrayValue.run m ρ)

end Cert.KernelIdeal.LayerValue

end
-- ==== Proof.RefIsLayer.lean ====
/-
  The reference's result is the dense logistic layer.

  The reference multiplies the propagated feature matrix `P` (100000 × 96) by the transposed weights, adds the bias
  spread over all rows, and applies σ spelled out: negate, exponential, add 1, divide 1 by the sum. Read at
  (r, j): the product is the sum over `k` of `P r k` against the transposed weights at (k, j), which is `W j k`; the
  bias spread to one row and then to all rows reads `b j`; and the spelled-out σ is σ. The propagated features stay
  ONE unopened function of the node features and the edge list.
-/
import proofs.«141218_j51196010169027_1_alg».proof.Proof.RefReadPatched
import proofs.«141218_j51196010169027_1_alg».proof.Proof.DenseLogistic

noncomputable section

namespace Cert.ReferenceIdeal.RefValue

open Cert.ReferenceIdeal Cert.ReferenceIdeal.ReadP Idealize.ShloMosaic Idealize.ShloMosaic.ValueIdx Cert.DenseLogistic

/-- The reference's result array, as a function of its four arguments, is the layer of the propagated features (the
    stage before the product, unopened), the weights and the bias. -/
theorem result_is_layer (x0 : (⟨S100000x96, .f32⟩ : BufTy).Contents (Elt Ideal)) (x1 : (⟨S2x800000, .i32⟩ : BufTy).Contents (Elt Ideal))
    (x2 : (⟨S64x96, .f32⟩ : BufTy).Contents (Elt Ideal)) (x3 : (⟨S64, .f32⟩ : BufTy).Contents (Elt Ideal)) :
    val_main_v66 (F := Ideal) x0 x1 x2 x3
      = layer (fun r k => val_main_v55 (F := Ideal) x0 x1 (ix2 r k)) (fun j k => x2 (ix2 j k)) (fun j => x3 (ix1 j)) := by
  funext i
  obtain ⟨r, j, rfl⟩ : ∃ (r : Fin 100000) (j : Fin 64), i = ix2 r j := ⟨i 0, i 1, eq_ix2 i⟩
  rw [layer_ix2]
  -- the product's two factors, and the bias, are read where the entry says
  have el : ∀ k : Fin 96, lidx_main_v57 (ix2 r j) k = ix2 r k := fun k =>
    funext fun a => Fin.ext (by match a with | ⟨0, _⟩ => rfl | ⟨1, _⟩ => rfl)
  have er : ∀ k : Fin 96, idx_main_v56 (ridx_main_v57 (ix2 r j) k) = ix2 j k := fun k =>
    funext fun a => Fin.ext (by match a with | ⟨0, _⟩ => rfl | ⟨1, _⟩ => rfl)
  have eb : idx_main_v58 (idx_main_v59 (ix2 r j)) = ix1 j :=
    funext fun a => Fin.ext (by match a with | ⟨0, _⟩ => rfl)
  rw [val_main_v66_apply, val_main_v65_apply, val_main_cst_13_apply, val_main_v64_apply, val_main_v63_apply,
    val_main_cst_12_apply, val_main_v62_apply, val_main_v61_apply, val_main_v60_apply, val_main_v57_apply,
    val_main_v59_apply, val_main_v58_apply]
  simp only [val_main_v56_apply, el, er, eb, Ideal.hostDivf_def, Ideal.addf_def, Ideal.hostUnary_exp_def,
    Ideal.hostNegf_def, Ideal.negf_def, Ideal.ofBits_def]
  exact logistic_spelled _

end Cert.ReferenceIdeal.RefValue

end
-- ==== Proof.lean ====
/-
  The certificate: a graph-convolution layer's dense tail, computed block by block, against the whole-array reference.

  Both programs take node features (100000 × 96), an edge list (2 × 800000), a weight matrix (64 × 96) and a bias
  (64). Both first propagate the features: two rounds of gathering each edge's source row, scaling it by the product of
  the inverse square-root degrees of the edge's two ends, and scatter-adding it at the edge's destination, over the edge
  list extended by a self-loop per node. The two programs do this by the SAME host operations in the same order, so
  the propagated matrix `P` is one function of the features and the edge list, and nothing is ever asked of it
  beyond that: no scatter or gather is opened.

  They differ in the tail. The reference forms `P · Wᵀ + b` on the whole array and applies the logistic function σ
  spelled out as 1 / (1 + e^(−z)). The kernel cuts the 100000 rows into ten blocks of 10000; for each block it narrows
  the block and the transposed weights to a shorter float format, multiplies them into an accumulator of zeros, adds the
  bias as a row spread over the block, and applies σ as one operation. Over the extended reals a change of float
  format is the identity, a product into a zero accumulator is the plain sum of products, and σ in either spelling
  is the same function with the same values at the infinities; the ten blocks tile the rows. So entry (r, j) of
  either result is σ (∑ₖ P r k · W j k + b j): equal for ALL inputs, finite or not — the precondition is never opened.

  The three frames: the two kernel programs' are the generated ones; the reference has no kernel, and its frame is
  its run with the result forgotten. The idealisation rewrote no operation, so what it must preserve is trivial.
-/
import proofs.«141218_j51196010169027_1_alg».proof.Defs
import proofs.«141218_j51196010169027_1_alg».proof.Proof.Gen.Kernel
import proofs.«141218_j51196010169027_1_alg».proof.Proof.Gen.Kernel.Skeleton
import proofs.«141218_j51196010169027_1_alg».proof.Proof.Gen.Kernel.Launch
import proofs.«141218_j51196010169027_1_alg».proof.Proof.Gen.Kernel.Points
import proofs.«141218_j51196010169027_1_alg».proof.Proof.Gen.Kernel.Frame
import proofs.«141218_j51196010169027_1_alg».proof.Proof.Gen.KernelIdeal
import proofs.«141218_j51196010169027_1_alg».proof.Proof.Gen.KernelIdeal.Skeleton
import proofs.«141218_j51196010169027_1_alg».proof.Proof.Gen.KernelIdeal.Launch
import proofs.«141218_j51196010169027_1_alg».proof.Proof.Gen.KernelIdeal.Points
import proofs.«141218_j51196010169027_1_alg».proof.Proof.Gen.KernelIdeal.Frame
import proofs.«141218_j51196010169027_1_alg».proof.Proof.Gen.ReferenceIdeal
import proofs.«141218_j51196010169027_1_alg».proof.Proof.Gen.Pre_finite_inputs
import proofs.«141218_j51196010169027_1_alg».proof.Proof.Gen.KernelIdeal.Value
import proofs.«141218_j51196010169027_1_alg».proof.Proof.KernelIsLayer
import proofs.«141218_j51196010169027_1_alg».proof.Proof.RefIsLayer
import Idealize.ShloMosaic.Adequacy
import Idealize.ShloMosaic.Init

noncomputable section

namespace Cert.Proof

open Idealize.ShloMosaic Idealize.ShloMosaic.TcCoe Idealize.ShloMosaic.ValueIdx Idealize.SL.Sem Cert.DenseLogistic

/-- The kernel program as printed runs to the end and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is host operations only: its frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Run from memories that agree on the four arguments, the two programs both end with the dense logistic layer of
    the propagated features, the weights and the bias: the kernel's result array block by block
    (`LayerValue.run`), the reference's as one array (`result_is_layer`). -/
theorem algebraic : Cert.algebraic_KernelIdeal_ReferenceIdeal := by
  intro m ρ m' ρ' _ hagree
  refine ⟨fun c => layer
      (fun r k => Cert.ReferenceIdeal.ReadP.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k))
      (fun j k => (m ((c.tc : Thread Cert.KernelIdeal.nD Cert.KernelIdeal.τ).loc Cert.KernelIdeal.main_arg2)) (ix2 j k)) (fun j => (m ((c.tc : Thread Cert.KernelIdeal.nD Cert.KernelIdeal.τ).loc Cert.KernelIdeal.main_arg3)) (ix1 j)),
    Cert.KernelIdeal.LayerValue.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v66_eq, Cert.ReferenceIdeal.RefValue.result_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
